-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S2x3200000 : Shape := ⟨2, ![2, 3200000]⟩
abbrev S200000 : Shape := ⟨1, ![200000]⟩
abbrev S64x32 : Shape := ⟨2, ![64, 32]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2x64 .f32) (main_arg10 : FVec F S2 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S2x64 .f32) (main_arg10 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S200000x32 .f32) (main_arg1 : IVec S2x3200000 32) (main_arg2 : IVec S200000 32) (main_arg3 : FVec F S64x32 .f32) (main_arg4 : FVec F S64 .f32) (main_arg5 : FVec F S64x32 .f32) (main_arg6 : FVec F S64x64 .f32) (main_arg7 : FVec F S64 .f32) (main_arg8 : FVec F S64x64 .f32) (main_arg9 : FVec F S2x64 .f32) (main_arg10 : FVec F S2 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_arg10 main_v13 main_v16
-- ==== Kernel.lean ====
abbrev S200000x32 : Shape := ⟨2, ![200000, 32]⟩
abbrev S2x3200000 : Shape := ⟨2, ![2, 3200000]⟩
abbrev S200000 : Shape := ⟨1, ![200000]⟩
abbrev S64x32 : Shape := ⟨2, ![64, 32]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S200000x1 : Shape := ⟨2, ![200000, 1]⟩
abbrev S3200000x32 : Shape := ⟨2, ![3200000, 32]⟩
abbrev S32x64 : Shape := ⟨2, ![32, 64]⟩
abbrev S1x64 : Shape := ⟨2, ![1, 64]⟩
abbrev S200000x64 : Shape := ⟨2, ![200000, 64]⟩
abbrev S5000x32 : Shape := ⟨2, ![5000, 32]⟩
abbrev S5000x1 : Shape := ⟨2, ![5000, 1]⟩
abbrev S5000x64 : Shape := ⟨2, ![5000, 64]⟩
abbrev S3200000x64 : Shape := ⟨2, ![3200000, 64]⟩
abbrev S4000x64 : Shape := ⟨2, ![4000, 64]⟩
abbrev S4000 : Shape := ⟨1, ![4000]⟩
abbrev S4000x1 : Shape := ⟨2, ![4000, 1]⟩
abbrev S64x2 : Shape := ⟨2, ![64, 2]⟩
abbrev S4000x2 : Shape := ⟨2, ![4000, 2]⟩
abbrev S1x2 : Shape := ⟨2, ![1, 2]⟩

abbrev nBuf : Space → Nat
  | .hbm => 84
  | .vmem => 22
  | .smem => 0
  | _ => 0

abbrev bufTy : (tb : Table) → Fin (tcTables nBuf tb) → BufTy
  | .hbm, ⟨0, _⟩ => ⟨S200000x32, .f32⟩
  | .hbm, ⟨1, _⟩ => ⟨S2x3200000, .i32⟩
  | .hbm, ⟨2, _⟩ => ⟨S200000, .i32⟩
  | .hbm, ⟨3, _⟩ => ⟨S64x32, .f32⟩
  | .hbm, ⟨4, _⟩ => ⟨S64, .f32⟩
  | .hbm, ⟨5, _⟩ => ⟨S64x32, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S2x64, .f32⟩
  | .hbm, ⟨10, _⟩ => ⟨S2, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S200000, .f32⟩
  | .hbm, ⟨19, _⟩ => ⟨S3200000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x32, .f32⟩
  | .hbm, ⟨37, _⟩ => ⟨S_, .f32⟩
  | .hbm, ⟨38, _⟩ => ⟨S200000x32, .f32⟩
  | .hbm, ⟨39, _⟩ => ⟨S3200000x1, .i32⟩
  | .hbm, ⟨40, _⟩ => ⟨S200000x32, .f32⟩
  | .hbm, ⟨41, _⟩ => ⟨S32x64, .f32⟩
  | .hbm, ⟨42, _⟩ => ⟨S32x64, .f32⟩
  | .hbm, ⟨43, _⟩ => ⟨S1x64, .f32⟩
  | .hbm, ⟨44, _⟩ => ⟨S200000x64, .bf16⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .bf16⟩
  | .hbm, ⟨54, _⟩ => ⟨S3200000x64, .f32⟩
  | .hbm, ⟨55, _⟩ => ⟨S_, .f32⟩
  | .hbm, ⟨56, _⟩ => ⟨S200000x64, .f32⟩
  | .hbm, ⟨57, _⟩ => ⟨S3200000x1, .i32⟩
  | .hbm, ⟨58, _⟩ => ⟨S200000x64, .f32⟩
  | .hbm, ⟨59, _⟩ => ⟨S64x64, .f32⟩
  | .hbm, ⟨60, _⟩ => ⟨S64x64, .f32⟩
  | .hbm, ⟨61, _⟩ => ⟨S1x64, .f32⟩
  | .hbm, ⟨62, _⟩ => ⟨S200000x64, .f32⟩
  | .hbm, ⟨63, _⟩ => ⟨S_, .f32⟩
  | .hbm, ⟨64, _⟩ => ⟨S4000x64, .f32⟩
  | .hbm, ⟨65, _⟩ => ⟨S200000x1, .i32⟩
  | .hbm, ⟨66, _⟩ => ⟨S4000x64, .f32⟩
  | .hbm, ⟨67, _⟩ => ⟨S_, .f32⟩
  | .hbm, ⟨68, _⟩ => ⟨S200000, .f32⟩
  | .hbm, ⟨69, _⟩ => ⟨S_, .f32⟩
  | .hbm, ⟨70, _⟩ => ⟨S4000, .f32⟩
  | .hbm, ⟨71, _⟩ => ⟨S200000x1, .i32⟩
  | .hbm, ⟨72, _⟩ => ⟨S4000, .f32⟩
  | .hbm, ⟨73, _⟩ => ⟨S_, .f32⟩
  | .hbm, ⟨74, _⟩ => ⟨S4000, .f32⟩
  | .hbm, ⟨75, _⟩ => ⟨S4000, .f32⟩
  | .hbm, ⟨76, _⟩ => ⟨S4000x1, .f32⟩
  | .hbm, ⟨77, _⟩ => ⟨S4000x64, .f32⟩
  | .hbm, ⟨78, _⟩ => ⟨S4000x64, .f32⟩
  | .hbm, ⟨79, _⟩ => ⟨S64x2, .f32⟩
  | .hbm, ⟨80, _⟩ => ⟨S4000x2, .f32⟩
  | .hbm, ⟨81, _⟩ => ⟨S1x2, .f32⟩
  | .hbm, ⟨82, _⟩ => ⟨S4000x2, .f32⟩
  | .hbm, ⟨83, _⟩ => ⟨S4000x2, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S32x64, .f32⟩
  | .local _ .vmem, ⟨7, _⟩ => ⟨S1x64, .f32⟩
  | .local _ .vmem, ⟨8, _⟩ => ⟨S32x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .bf16⟩
  | .local _ .vmem, ⟨16, _⟩ => ⟨S5000x64, .bf16⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_v0 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  shapeCasts_S200000_S200000x1 : S200000.ShapeCasts S200000x1
  bcast_S_S200000x32 : S_.BroadcastsInDim S200000x32 (![] : Fin 0 → Fin S200000x32.rank)
  transposes_S64x32_S32x64_1_0 : S64x32.Transposes [1, 0] S32x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S200000x64 : S_.BroadcastsInDim S200000x64 (![] : Fin 0 → Fin S200000x64.rank)
  transposes_S64x64_S64x64_1_0 : S64x64.Transposes [1, 0] S64x64
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S4000x64 : S_.BroadcastsInDim S4000x64 (![] : Fin 0 → Fin S4000x64.rank)
  bcast_S200000_S200000x1_0 : S200000.BroadcastsInDim S200000x1 (![0] : Fin 1 → Fin S200000x1.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x64_0_1 : S4000x1.BroadcastsInDim S4000x64 (![0, 1] : Fin 2 → Fin S4000x64.rank)
  transposes_S2x64_S64x2_1_0 : S2x64.Transposes [1, 0] S64x2
  bcast_S2_S1x2_1 : S2.BroadcastsInDim S1x2 (![1] : Fin 1 → Fin S1x2.rank)
  bcast_S1x2_S4000x2_0_1 : S1x2.BroadcastsInDim S4000x2 (![0, 1] : Fin 2 → Fin S4000x2.rank)
  scatter_S200000_S3200000x1_S3200000_n_0_0_1_wf : ScatterDims.WF S200000 S3200000x1 S3200000 [] [0] [0] 1
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S5000x32_S32x64_S5000x64_1_0_0_1_n_n_wf : DotDims.WF S5000x32 S32x64 S5000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S5000x64_S64x64_S5000x64_1_0_0_1_n_n_wf : DotDims.WF S5000x64 S64x64 S5000x64 [1] [0] [0] [1] [] []
  scatter_S4000x64_S200000x1_S200000x64_1_0_0_1_wf : ScatterDims.WF S4000x64 S200000x1 S200000x64 [1] [0] [0] 1
  scatter_S4000_S200000x1_S200000_n_0_0_1_wf : ScatterDims.WF S4000 S200000x1 S200000 [] [0] [0] 1
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S200000x32.size a
  hwx0_0 : ∀ i : grid0.Coords, EltTy.bits .f32 = 32 ∨ (Rect.block (s := S200000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S200000x32.size a
  hwx0_2 : ∀ i : grid0.Coords, EltTy.bits .f32 = 32 ∨ (Rect.block (s := S200000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S200000x64.size a
  hwx0_6 : ∀ i : grid0.Coords, EltTy.bits .bf16 = 32 ∨ (Rect.block (s := S200000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S200000x64.size a
  hwx1_2 : ∀ i : grid1.Coords, EltTy.bits .bf16 = 32 ∨ (Rect.block (s := S200000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S200000x64.size a
  hwx1_6 : ∀ i : grid1.Coords, EltTy.bits .f32 = 32 ∨ (Rect.block (s := S200000x64) S5000x64.size (cc1_transform_6 i) (hinb1_6 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S4000x64_S200000x1_S200000x64_1_0_0_1 : ScatterDims S4000x64 S200000x1 S200000x64 where
  updateWindowDims := [1]
  insertedWindowDims := [0]
  scatterDimsToOperandDims := [0]
  indexVectorDim := 1
  wf := scatter_S4000x64_S200000x1_S200000x64_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_v22) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call1_v0) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S200000x32 : Shape := ⟨2, ![200000, 32]⟩
abbrev S2x3200000 : Shape := ⟨2, ![2, 3200000]⟩
abbrev S200000 : Shape := ⟨1, ![200000]⟩
abbrev S64x32 : Shape := ⟨2, ![64, 32]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S200000x1 : Shape := ⟨2, ![200000, 1]⟩
abbrev S32x64 : Shape := ⟨2, ![32, 64]⟩
abbrev S200000x64 : Shape := ⟨2, ![200000, 64]⟩
abbrev S1x64 : Shape := ⟨2, ![1, 64]⟩
abbrev S3200000x64 : Shape := ⟨2, ![3200000, 64]⟩
abbrev S4000x64 : Shape := ⟨2, ![4000, 64]⟩
abbrev S4000 : Shape := ⟨1, ![4000]⟩
abbrev S4000x1 : Shape := ⟨2, ![4000, 1]⟩
abbrev S64x2 : Shape := ⟨2, ![64, 2]⟩
abbrev S4000x2 : Shape := ⟨2, ![4000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S2x3200000, .i32⟩
  | .hbm, ⟨2, _⟩ => ⟨S200000, .i32⟩
  | .hbm, ⟨3, _⟩ => ⟨S64x32, .f32⟩
  | .hbm, ⟨4, _⟩ => ⟨S64, .f32⟩
  | .hbm, ⟨5, _⟩ => ⟨S64x32, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S2x64, .f32⟩
  | .hbm, ⟨10, _⟩ => ⟨S2, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S_, .f32⟩
  | .hbm, ⟨25, _⟩ => ⟨S200000x32, .f32⟩
  | .hbm, ⟨26, _⟩ => ⟨S3200000x1, .i32⟩
  | .hbm, ⟨27, _⟩ => ⟨S200000x32, .f32⟩
  | .hbm, ⟨28, _⟩ => ⟨S_, .f32⟩
  | .hbm, ⟨29, _⟩ => ⟨S3200000, .f32⟩
  | .hbm, ⟨30, _⟩ => ⟨S_, .f32⟩
  | .hbm, ⟨31, _⟩ => ⟨S200000, .f32⟩
  | .hbm, ⟨32, _⟩ => ⟨S3200000x1, .i32⟩
  | .hbm, ⟨33, _⟩ => ⟨S200000, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000x1, .f32⟩
  | .hbm, ⟨38, _⟩ => ⟨S200000x32, .f32⟩
  | .hbm, ⟨39, _⟩ => ⟨S200000x32, .f32⟩
  | .hbm, ⟨40, _⟩ => ⟨S32x64, .f32⟩
  | .hbm, ⟨41, _⟩ => ⟨S200000x64, .f32⟩
  | .hbm, ⟨42, _⟩ => ⟨S1x64, .f32⟩
  | .hbm, ⟨43, _⟩ => ⟨S200000x64, .f32⟩
  | .hbm, ⟨44, _⟩ => ⟨S200000x64, .f32⟩
  | .hbm, ⟨45, _⟩ => ⟨S32x64, .f32⟩
  | .hbm, ⟨46, _⟩ => ⟨S200000x64, .f32⟩
  | .hbm, ⟨47, _⟩ => ⟨S200000x64, .f32⟩
  | .hbm, ⟨48, _⟩ => ⟨S_, .f32⟩
  | .hbm, ⟨49, _⟩ => ⟨S200000x64, .f32⟩
  | .hbm, ⟨50, _⟩ => ⟨S200000x64, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x64, .f32⟩
  | .hbm, ⟨60, _⟩ => ⟨S_, .f32⟩
  | .hbm, ⟨61, _⟩ => ⟨S200000x64, .f32⟩
  | .hbm, ⟨62, _⟩ => ⟨S3200000x1, .i32⟩
  | .hbm, ⟨63, _⟩ => ⟨S200000x64, .f32⟩
  | .hbm, ⟨64, _⟩ => ⟨S_, .f32⟩
  | .hbm, ⟨65, _⟩ => ⟨S3200000, .f32⟩
  | .hbm, ⟨66, _⟩ => ⟨S_, .f32⟩
  | .hbm, ⟨67, _⟩ => ⟨S200000, .f32⟩
  | .hbm, ⟨68, _⟩ => ⟨S3200000x1, .i32⟩
  | .hbm, ⟨69, _⟩ => ⟨S200000, .f32⟩
  | .hbm, ⟨70, _⟩ => ⟨S_, .f32⟩
  | .hbm, ⟨71, _⟩ => ⟨S200000, .f32⟩
  | .hbm, ⟨72, _⟩ => ⟨S200000, .f32⟩
  | .hbm, ⟨73, _⟩ => ⟨S200000x1, .f32⟩
  | .hbm, ⟨74, _⟩ => ⟨S200000x64, .f32⟩
  | .hbm, ⟨75, _⟩ => ⟨S200000x64, .f32⟩
  | .hbm, ⟨76, _⟩ => ⟨S64x64, .f32⟩
  | .hbm, ⟨77, _⟩ => ⟨S200000x64, .f32⟩
  | .hbm, ⟨78, _⟩ => ⟨S1x64, .f32⟩
  | .hbm, ⟨79, _⟩ => ⟨S200000x64, .f32⟩
  | .hbm, ⟨80, _⟩ => ⟨S200000x64, .f32⟩
  | .hbm, ⟨81, _⟩ => ⟨S64x64, .f32⟩
  | .hbm, ⟨82, _⟩ => ⟨S200000x64, .f32⟩
  | .hbm, ⟨83, _⟩ => ⟨S200000x64, .f32⟩
  | .hbm, ⟨84, _⟩ => ⟨S_, .f32⟩
  | .hbm, ⟨85, _⟩ => ⟨S200000x64, .f32⟩
  | .hbm, ⟨86, _⟩ => ⟨S200000x64, .f32⟩
  | .hbm, ⟨87, _⟩ => ⟨S_, .f32⟩
  | .hbm, ⟨88, _⟩ => ⟨S4000x64, .f32⟩
  | .hbm, ⟨89, _⟩ => ⟨S200000x1, .i32⟩
  | .hbm, ⟨90, _⟩ => ⟨S4000x64, .f32⟩
  | .hbm, ⟨91, _⟩ => ⟨S_, .f32⟩
  | .hbm, ⟨92, _⟩ => ⟨S200000, .f32⟩
  | .hbm, ⟨93, _⟩ => ⟨S_, .f32⟩
  | .hbm, ⟨94, _⟩ => ⟨S4000, .f32⟩
  | .hbm, ⟨95, _⟩ => ⟨S200000x1, .i32⟩
  | .hbm, ⟨96, _⟩ => ⟨S4000, .f32⟩
  | .hbm, ⟨97, _⟩ => ⟨S_, .f32⟩
  | .hbm, ⟨98, _⟩ => ⟨S4000, .f32⟩
  | .hbm, ⟨99, _⟩ => ⟨S4000, .f32⟩
  | .hbm, ⟨100, _⟩ => ⟨S4000x1, .f32⟩
  | .hbm, ⟨101, _⟩ => ⟨S4000x64, .f32⟩
  | .hbm, ⟨102, _⟩ => ⟨S4000x64, .f32⟩
  | .hbm, ⟨103, _⟩ => ⟨S64x2, .f32⟩
  | .hbm, ⟨104, _⟩ => ⟨S4000x2, .f32⟩
  | .hbm, ⟨105, _⟩ => ⟨S1x2, .f32⟩
  | .hbm, ⟨106, _⟩ => ⟨S4000x2, .f32⟩
  | .hbm, ⟨107, _⟩ => ⟨S4000x2, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x32 : S_.BroadcastsInDim S200000x32 (![] : Fin 0 → Fin S200000x32.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  transposes_S64x32_S32x64_1_0 : S64x32.Transposes [1, 0] S32x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  transposes_S64x64_S64x64_1_0 : S64x64.Transposes [1, 0] S64x64
  bcast_S_S4000x64 : S_.BroadcastsInDim S4000x64 (![] : Fin 0 → Fin S4000x64.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x64_0_1 : S4000x1.BroadcastsInDim S4000x64 (![0, 1] : Fin 2 → Fin S4000x64.rank)
  transposes_S2x64_S64x2_1_0 : S2x64.Transposes [1, 0] S64x2
  bcast_S2_S1x2_1 : S2.BroadcastsInDim S1x2 (![1] : Fin 1 → Fin S1x2.rank)
  bcast_S1x2_S4000x2_0_1 : S1x2.BroadcastsInDim S4000x2 (![0, 1] : Fin 2 → Fin S4000x2.rank)
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  scatter_S200000_S3200000x1_S3200000_n_0_0_1_wf : ScatterDims.WF S200000 S3200000x1 S3200000 [] [0] [0] 1
  dot_S200000x32_S32x64_S200000x64_1_0_0_1_n_n_wf : DotDims.WF S200000x32 S32x64 S200000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x64_S200000x64_1_0_0_1_n_n_wf : DotDims.WF S200000x64 S64x64 S200000x64 [1] [0] [0] [1] [] []
  scatter_S4000x64_S200000x1_S200000x64_1_0_0_1_wf : ScatterDims.WF S4000x64 S200000x1 S200000x64 [1] [0] [0] 1
  scatter_S4000_S200000x1_S200000_n_0_0_1_wf : ScatterDims.WF S4000 S200000x1 S200000 [] [0] [0] 1
  dot_S4000x64_S64x2_S4000x2_1_0_0_1_n_n_wf : DotDims.WF S4000x64 S64x2 S4000x2 [1] [0] [0] [1] [] []

variable [Facts₀]

def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x32_S32x64_S200000x64_1_0_0_1_n_n : DotDims S200000x32 S32x64 S200000x64 where
  lhsContracting := [1]
  rhsContracting := [0]
  lhsNonContracting := [0]
  rhsNonContracting := [1]
  lhsBatch := []
  rhsBatch := []
  wf := dot_S200000x32_S32x64_S200000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S4000x64_S200000x1_S200000x64_1_0_0_1 : ScatterDims S4000x64 S200000x1 S200000x64 where
  updateWindowDims := [1]
  insertedWindowDims := [0]
  scatterDimsToOperandDims := [0]
  indexVectorDim := 1
  wf := scatter_S4000x64_S200000x1_S200000x64_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

class Facts : Prop extends Facts₀ where

variable [Facts]
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Payload.lean ====
/-
  The body of each of the two layer kernels, read at one entry (p, q) of its 5000×64 output block.

  The body multiplies the neighbour-sum block by the column of reciprocal degrees (broadcast along the row), takes
  the two matrix products into a zero accumulator, adds them, adds the bias row (broadcast down the block) and takes
  the maximum with zero.  Changes of float format are the identity on extended reals, the casts of a shape to itself
  are the identity, and a product into the zero accumulator is the plain sum over the contracted index.
-/
import proofs.«145294_j2765958938745_2_alg».proof.Proof.Gen.KernelIdeal.Skeleton
import proofs.«145294_j2765958938745_2_alg».proof.Proof.LibColumn
import proofs.«145294_j2765958938745_2_alg».proof.Proof.LibPlainDot
import Idealize.ShloMosaic.Lib.Pipeline.Value
import Idealize.ShloMosaic.Lib.ValueIdx
import Idealize.ShloMosaic.Lib.ValueLayout

noncomputable section

namespace Cert.Sage

open Idealize.ShloMosaic Idealize.ShloMosaic.ValueIdx Cert.KernelIdeal Cert.KernelIdeal.Gen

/-- First layer (32 input features): entry (p, q) of the stored block, from the six loaded blocks. -/
theorem pay0_apply (v0 : FVec Ideal S5000x1 .f32) (v2 v7 : FVec Ideal S5000x32 .f32) (v9 v12 : FVec Ideal S32x64 .f32)
    (v18 : FVec Ideal S1x64 .f32) (p : Fin 5000) (q : Fin 64) :
    k0_pay1 (F := Ideal) v0 v2 v7 v9 v12 v18 (ix2 p q)
      = max (((∑ k : Fin 32, (v2 (ix2 p k) * v0 (ix2 p (0 : Fin 1))) * v9 (ix2 k q))
          + ∑ k : Fin 32, v7 (ix2 p k) * v12 (ix2 k q)) + v18 (ix2 (0 : Fin 1) q)) (Ideal.ofBits .f32 0x00000000#32) := by
  unfold k0_pay1
  simp only [truncf_apply, maximumf_apply, addf_apply, broadcast_apply]
  refine congrArg₂ max (congrArg₂ (· + ·) (congrArg₂ (· + ·) ?_ ?_) ?_) rfl
  · refine (Cert.PlainDot.matmul_zero_apply _ rfl none _ _ p q).trans (Finset.sum_congr rfl fun k _ => ?_)
    simp only [truncf_apply, mulf_apply, shapeCast_self, Cert.GraphConv.Column.broadcastTo_a1_ab_apply]
  · refine (Cert.PlainDot.matmul_zero_apply _ rfl none _ _ p q).trans (Finset.sum_congr rfl fun k _ => ?_)
    simp only [truncf_apply, shapeCast_self]
  · rw [shapeCast_self]
    exact broadcastTo_1b_ab_apply _ _ p q

/-- Second layer (64 input features): the same entry. -/
theorem pay1_apply (v0 : FVec Ideal S5000x1 .f32) (v2 : FVec Ideal S5000x64 .f32) (v7 : FVec Ideal S5000x64 .bf16)
    (v9 v12 : FVec Ideal S64x64 .f32) (v18 : FVec Ideal S1x64 .f32) (p : Fin 5000) (q : Fin 64) :
    k1_pay1 (F := Ideal) v0 v2 v7 v9 v12 v18 (ix2 p q)
      = max (((∑ k : Fin 64, (v2 (ix2 p k) * v0 (ix2 p (0 : Fin 1))) * v9 (ix2 k q))
          + ∑ k : Fin 64, v7 (ix2 p k) * v12 (ix2 k q)) + v18 (ix2 (0 : Fin 1) q)) (Ideal.ofBits .f32 0x00000000#32) := by
  unfold k1_pay1
  simp only [truncf_apply, maximumf_apply, addf_apply, broadcast_apply]
  refine congrArg₂ max (congrArg₂ (· + ·) (congrArg₂ (· + ·) ?_ ?_) ?_) rfl
  · refine (Cert.PlainDot.matmul_zero_apply _ rfl none _ _ p q).trans (Finset.sum_congr rfl fun k _ => ?_)
    simp only [truncf_apply, mulf_apply, shapeCast_self, Cert.GraphConv.Column.broadcastTo_a1_ab_apply]
  · refine (Cert.PlainDot.matmul_zero_apply _ rfl none _ _ p q).trans (Finset.sum_congr rfl fun k _ => ?_)
    simp only [truncf_apply, shapeCast_self]
  · rw [shapeCast_self]
    exact broadcastTo_1b_ab_apply _ _ p q

end Cert.Sage

end
-- ==== Proof.Spec.lean ====
/-
  One graph-convolution layer, entry by entry, over the extended reals.

  A node's new feature c is  max( Σₖ (msg[r,k] · inv[r]) · Wl[k,c]  +  Σₖ x[r,k] · Wr[k,c]  +  b[c] , 0 ),
  where msg is the sum of the neighbours' features, inv[r] the reciprocal of the node's in-degree clamped below at 1,
  and Wl, Wr the two weight matrices already transposed to [K, 64].  The other arrangement of the same number
  divides msg[r,k] by the clamped degree instead of multiplying by its reciprocal, and adds the bias before the
  second product.  The two agree because the clamped degree is at least 1, hence never zero: division by a nonzero
  extended real IS multiplication by its inverse, and addition of extended reals is commutative and associative.
  No finiteness of any entry is used.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The word of `1.0` denotes the real one. -/
theorem one_word : Ideal.ofBits .f32 0x3F800000#32 = 1 := by
  simp [Ideal.ofBits, Ideal.ieee, -EReal.coe_mul]; norm_num

/-- A degree clamped below at one is never zero. -/
theorem clamp_ne_zero (d : EReal) : max d (Ideal.ofBits .f32 0x3F800000#32) ≠ 0 := by
  rw [one_word]
  exact ne_of_gt (lt_of_lt_of_le zero_lt_one (le_max_right d 1))

/-- Multiplying by the reciprocal of a nonzero extended real is dividing by it. -/
theorem mul_recip (a d : EReal) (hd : d ≠ 0) :
    a * Ideal.div (Ideal.ofBits .f32 0x3F800000#32) d = Ideal.div a d := by
  rw [one_word, Ideal.div, if_neg hd, Ideal.div, if_neg hd, one_mul]

/-- Entry (r, c) of one layer, in the arrangement "scale the neighbour sum by the reciprocal, two products, then bias". -/
def cell {K : ℕ} (msg : (⟨2, ![200000, K]⟩ : Shape).Idx → EReal) (inv : (⟨2, ![200000, 1]⟩ : Shape).Idx → EReal)
    (x : (⟨2, ![200000, K]⟩ : Shape).Idx → EReal) (wl : (⟨2, ![K, 64]⟩ : Shape).Idx → EReal)
    (b : (⟨2, ![1, 64]⟩ : Shape).Idx → EReal) (wr : (⟨2, ![K, 64]⟩ : Shape).Idx → EReal)
    (r : Fin 200000) (c : Fin 64) : EReal :=
  max (((∑ k : Fin K, (msg (ix2 r k) * inv (ix2 r (0 : Fin 1))) * wl (ix2 k c))
        + ∑ k : Fin K, x (ix2 r k) * wr (ix2 k c)) + b (ix2 (0 : Fin 1) c))
    (Ideal.ofBits .f32 0x00000000#32)

/-- The layer as a whole array. -/
def layer {K : ℕ} (msg : (⟨2, ![200000, K]⟩ : Shape).Idx → EReal) (inv : (⟨2, ![200000, 1]⟩ : Shape).Idx → EReal)
    (x : (⟨2, ![200000, K]⟩ : Shape).Idx → EReal) (wl : (⟨2, ![K, 64]⟩ : Shape).Idx → EReal)
    (b : (⟨2, ![1, 64]⟩ : Shape).Idx → EReal) (wr : (⟨2, ![K, 64]⟩ : Shape).Idx → EReal) :
    (⟨2, ![200000, 64]⟩ : Shape).Idx → EReal :=
  fun j => cell msg inv x wl b wr (j 0) (j 1)

/-- The other arrangement of the same entry: divide by the clamped degree `d`, add the bias after the first product.
    With `inv = 1/d`, `d ≠ 0`, it is `cell`. -/
theorem cell_eq_divided {K : ℕ} (msg : (⟨2, ![200000, K]⟩ : Shape).Idx → EReal) (inv : (⟨2, ![200000, 1]⟩ : Shape).Idx → EReal)
    (x : (⟨2, ![200000, K]⟩ : Shape).Idx → EReal) (wl : (⟨2, ![K, 64]⟩ : Shape).Idx → EReal)
    (b : (⟨2, ![1, 64]⟩ : Shape).Idx → EReal) (wr : (⟨2, ![K, 64]⟩ : Shape).Idx → EReal)
    (r : Fin 200000) (c : Fin 64) (d : EReal) (hd : d ≠ 0)
    (hinv : inv (ix2 r (0 : Fin 1)) = Ideal.div (Ideal.ofBits .f32 0x3F800000#32) d) :
    max (((∑ k : Fin K, Ideal.div (msg (ix2 r k)) d * wl (ix2 k c)) + b (ix2 (0 : Fin 1) c))
        + ∑ k : Fin K, x (ix2 r k) * wr (ix2 k c)) (Ideal.ofBits .f32 0x00000000#32)
      = cell msg inv x wl b wr r c := by
  unfold cell
  rw [hinv]
  simp only [mul_recip _ d hd]
  rw [add_right_comm]

end Cert.Sage

end
-- ==== Proof.Blocks0.lean ====
/-
  Layer 1's kernel as ONE array: after its 40 grid points, the output array holds `Sage.layer` of the six arrays
  the region finds on entry.

  Grid point t owns rows 5000·t … 5000·t+4999: the neighbour-sum, reciprocal-degree, feature and output windows all
  move with t along the rows, the two weight matrices and the bias row are whole.  So entry (p, q) of the block written
  at t is entry (5000·t + p, q) of the layer, and the 40 blocks tile the 200000 rows.
-/
import proofs.«145294_j2765958938745_2_alg».proof.Proof.Gen.KernelIdeal.Frame
import proofs.«145294_j2765958938745_2_alg».proof.Proof.Payload
import proofs.«145294_j2765958938745_2_alg».proof.Proof.Spec
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the four row-blocked windows sit at block row t, every window at block column 0,
    the three whole windows at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block read where the output's rows say -/

theorem block_msg (c : Dev nD) (t : Fin cfg0.N) (p : Fin 5000) (k : Fin 32) (r : Fin 200000) (hr : r.val = t.val * 5000 + p.val) :
    iblk0 V c 0 t (ix2 p k) = V c main_v22 (ix2 r k) := by
  show V c main_v22 (((cfg0.win 0).blk t).view.emb (ix2 p k)) = V c main_v22 (ix2 r k)
  obtain ⟨e0, e1, -⟩ := index_maps t
  refine congrArg _ (funext fun a => Fin.ext ?_)
  match a with
  | ⟨0, _⟩ => show win0_0.index t (0 : Fin 2) * 5000 + 1 * p.val = r.val; omega
  | ⟨1, _⟩ => show win0_0.index t (1 : Fin 2) * 32 + 1 * k.val = k.val; omega

theorem block_inv (c : Dev nD) (t : Fin cfg0.N) (p : Fin 5000) (r : Fin 200000) (hr : r.val = t.val * 5000 + p.val) :
    iblk0 V c 1 t (ix2 p (0 : Fin 1)) = V c main_v12 (ix2 r (0 : Fin 1)) := by
  show V c main_v12 (((cfg0.win 1).blk t).view.emb (ix2 p (0 : Fin 1))) = V c main_v12 (ix2 r (0 : Fin 1))
  obtain ⟨-, -, e0, e1, -⟩ := index_maps t
  refine congrArg _ (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

theorem block_x (c : Dev nD) (t : Fin cfg0.N) (p : Fin 5000) (k : Fin 32) (r : Fin 200000) (hr : r.val = t.val * 5000 + p.val) :
    iblk0 V c 2 t (ix2 p k) = V c main_arg0 (ix2 r k) := by
  show V c main_arg0 (((cfg0.win 2).blk t).view.emb (ix2 p k)) = V c main_arg0 (ix2 r k)
  obtain ⟨-, -, -, -, e0, e1, -⟩ := index_maps t
  refine congrArg _ (funext fun a => Fin.ext ?_)
  match a with
  | ⟨0, _⟩ => show win0_2.index t (0 : Fin 2) * 5000 + 1 * p.val = r.val; omega
  | ⟨1, _⟩ => show win0_2.index t (1 : Fin 2) * 32 + 1 * k.val = k.val; omega

theorem block_wl (c : Dev nD) (t : Fin cfg0.N) (k : Fin 32) (q : Fin 64) :
    iblk0 V c 3 t (ix2 k q) = V c main_v23 (ix2 k q) := by
  show V c main_v23 (((cfg0.win 3).blk t).view.emb (ix2 k q)) = V c main_v23 (ix2 k q)
  obtain ⟨-, -, -, -, -, -, e0, e1, -⟩ := index_maps t
  refine congrArg _ (funext fun a => Fin.ext ?_)
  match a with
  | ⟨0, _⟩ => show win0_3.index t (0 : Fin 2) * 32 + 1 * k.val = k.val; omega
  | ⟨1, _⟩ => show win0_3.index t (1 : Fin 2) * 64 + 1 * q.val = q.val; omega

theorem block_b (c : Dev nD) (t : Fin cfg0.N) (q : Fin 64) :
    iblk0 V c 4 t (ix2 (0 : Fin 1) q) = V c main_call0_v0 (ix2 (0 : Fin 1) q) := by
  show V c main_call0_v0 (((cfg0.win 4).blk t).view.emb (ix2 (0 : Fin 1) q)) = V c main_call0_v0 (ix2 (0 : Fin 1) q)
  obtain ⟨-, -, -, -, -, -, -, -, e0, e1, -⟩ := index_maps t
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

theorem block_wr (c : Dev nD) (t : Fin cfg0.N) (k : Fin 32) (q : Fin 64) :
    iblk0 V c 5 t (ix2 k q) = V c main_v24 (ix2 k q) := by
  show V c main_v24 (((cfg0.win 5).blk t).view.emb (ix2 k q)) = V c main_v24 (ix2 k q)
  obtain ⟨-, -, -, -, -, -, -, -, -, -, e0, e1, -⟩ := index_maps t
  refine congrArg _ (funext fun a => Fin.ext ?_)
  match a with
  | ⟨0, _⟩ => show win0_5.index t (0 : Fin 2) * 32 + 1 * k.val = k.val; omega
  | ⟨1, _⟩ => show win0_5.index t (1 : Fin 2) * 64 + 1 * q.val = q.val; omega

/-- The output block's entry (p, q) sits at row 5000·t + p of the array. -/
theorem block_out (t : Fin cfg0.N) (p : Fin 5000) (q : Fin 64) (r : Fin 200000) (hr : r.val = t.val * 5000 + p.val) :
    ((cfg0.win 6).blk t).view.emb (ix2 p q) = (ix2 r q : S200000x64.Idx) := by
  obtain ⟨-, -, -, -, -, -, -, -, -, -, -, -, e0, e1⟩ := index_maps t
  refine funext fun a => Fin.ext ?_
  match a with
  | ⟨0, _⟩ => show win0_6.index t (0 : Fin 2) * 5000 + 1 * p.val = r.val; omega
  | ⟨1, _⟩ => show win0_6.index t (1 : Fin 2) * 64 + 1 * q.val = q.val; omega

/-- The array the region's windows read, as the layer's six operands. -/
abbrev whole (c : Dev nD) : S200000x64.Idx → EReal :=
  layer (K := 32) (V c main_v22) (V c main_v12) (V c main_arg0) (V c main_v23) (V c main_call0_v0) (V c main_v24)

/-- What grid point t writes back is block t of the layer. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero zero_offsets]
  simp only [View.ld_unit_zero (S := S5000x1) zero_offsets, View.ld_unit_zero (S := S5000x32) zero_offsets,
    View.ld_unit_zero (S := S32x64) zero_offsets, View.ld_unit_zero (S := S1x64) zero_offsets]
  funext j
  obtain ⟨p, q, rfl⟩ : ∃ (p : Fin 5000) (q : Fin 64), j = ix2 p q := ⟨j 0, j 1, eq_ix2 j⟩
  have hN : cfg0.N = 40 := N_0
  have hr : t.val * 5000 + p.val < 200000 := by have := t.isLt; have := p.isLt; omega
  refine (pay0_apply (iblk0 V c 1 t) (iblk0 V c 0 t) (iblk0 V c 2 t) (iblk0 V c 3 t) (iblk0 V c 5 t) (iblk0 V c 4 t) p q).trans ?_
  rw [View.read_apply, block_out t p q ⟨t.val * 5000 + p.val, hr⟩ rfl]
  show _ = cell _ _ _ _ _ _ (⟨t.val * 5000 + p.val, hr⟩ : Fin 200000) q
  unfold cell
  simp only [fun k => block_msg V c t p k ⟨t.val * 5000 + p.val, hr⟩ rfl, block_inv V c t p ⟨t.val * 5000 + p.val, hr⟩ rfl,
    fun k => block_x V c t p k ⟨t.val * 5000 + p.val, hr⟩ rfl, block_wl V c t, block_b V c t, block_wr V c t]

/-- An index is in point t's output block iff each coordinate is in the block's range. -/
theorem mem_block (t : Fin cfg0.N) (i : S200000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v25).slice (win0_6.rect t)).set ↔ _
  rw [View.set_slice_whole, Rect.mem_set_unit]
  exact Iff.rfl

/-- The 40 blocks tile the 200000 rows: row i is in the block of point i / 5000. -/
theorem covered (i : S200000x64.Idx) : ∃ t : Fin cfg0.N, (cfg0.win 6).flush t = true ∧ i ∈ ((cfg0.win 6).blk t).view.set := by
  have hN : cfg0.N = 40 := N_0
  have hi0 : (i 0).val < 200000 := (i 0).isLt
  have hi1 : (i 1).val < 64 := (i 1).isLt
  refine ⟨⟨(i 0).val / 5000, by rw [hN]; omega⟩, flush0_6 _, ?_⟩
  rw [mem_block]
  obtain ⟨-, -, -, -, -, -, -, -, -, -, -, -, e0, e1⟩ := index_maps ⟨(i 0).val / 5000, by rw [hN]; omega⟩
  intro a
  match a with
  | ⟨0, _⟩ => show win0_6.index _ (0 : Fin 2) * 5000 ≤ (i 0).val ∧ (i 0).val < win0_6.index _ (0 : Fin 2) * 5000 + 5000; rw [e0]; show (i 0).val / 5000 * 5000 ≤ (i 0).val ∧ (i 0).val < (i 0).val / 5000 * 5000 + 5000; omega
  | ⟨1, _⟩ => show win0_6.index _ (1 : Fin 2) * 64 ≤ (i 1).val ∧ (i 1).val < win0_6.index _ (1 : Fin 2) * 64 + 64; rw [e1]; omega

/-- THE ARRAY after the region: the layer of the six arrays the region finds on entry. -/
theorem final (c : Dev nD) : (dat0 V c).arrAt 6 cfg0.N = whole V c :=
  (dat0 V c).arrAt_eq_of_cover 6 (whole V c) (fun t _ => flushed_eq V c t) (covered)

end Cert.Sage.Region0

end
-- ==== Proof.Blocks1.lean ====
/-
  Layer 2's kernel as ONE array: after its 40 grid points, the output array holds `Sage.layer` of the six arrays
  the region finds on entry.

  Grid point t owns rows 5000·t … 5000·t+4999: the neighbour-sum, reciprocal-degree, feature and output windows all
  move with t along the rows, the two weight matrices and the bias row are whole.  So entry (p, q) of the block written
  at t is entry (5000·t + p, q) of the layer, and the 40 blocks tile the 200000 rows.
-/
import proofs.«145294_j2765958938745_2_alg».proof.Proof.Gen.KernelIdeal.Frame
import proofs.«145294_j2765958938745_2_alg».proof.Proof.Payload
import proofs.«145294_j2765958938745_2_alg».proof.Proof.Spec
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the four row-blocked windows sit at block row t, every window at block column 0,
    the three whole windows at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block read where the output's rows say -/

theorem block_msg (c : Dev nD) (t : Fin cfg1.N) (p : Fin 5000) (k : Fin 64) (r : Fin 200000) (hr : r.val = t.val * 5000 + p.val) :
    iblk1 V c 0 t (ix2 p k) = V c main_v36 (ix2 r k) := by
  show V c main_v36 (((cfg1.win 0).blk t).view.emb (ix2 p k)) = V c main_v36 (ix2 r k)
  obtain ⟨e0, e1, -⟩ := index_maps t
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

theorem block_inv (c : Dev nD) (t : Fin cfg1.N) (p : Fin 5000) (r : Fin 200000) (hr : r.val = t.val * 5000 + p.val) :
    iblk1 V c 1 t (ix2 p (0 : Fin 1)) = V c main_v12 (ix2 r (0 : Fin 1)) := by
  show V c main_v12 (((cfg1.win 1).blk t).view.emb (ix2 p (0 : Fin 1))) = V c main_v12 (ix2 r (0 : Fin 1))
  obtain ⟨-, -, e0, e1, -⟩ := index_maps t
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

theorem block_x (c : Dev nD) (t : Fin cfg1.N) (p : Fin 5000) (k : Fin 64) (r : Fin 200000) (hr : r.val = t.val * 5000 + p.val) :
    iblk1 V c 2 t (ix2 p k) = V c main_v25 (ix2 r k) := by
  show V c main_v25 (((cfg1.win 2).blk t).view.emb (ix2 p k)) = V c main_v25 (ix2 r k)
  obtain ⟨-, -, -, -, e0, e1, -⟩ := index_maps t
  refine congrArg _ (funext fun a => Fin.ext ?_)
  match a with
  | ⟨0, _⟩ => show win1_2.index t (0 : Fin 2) * 5000 + 1 * p.val = r.val; omega
  | ⟨1, _⟩ => show win1_2.index t (1 : Fin 2) * 64 + 1 * k.val = k.val; omega

theorem block_wl (c : Dev nD) (t : Fin cfg1.N) (k : Fin 64) (q : Fin 64) :
    iblk1 V c 3 t (ix2 k q) = V c main_v37 (ix2 k q) := by
  show V c main_v37 (((cfg1.win 3).blk t).view.emb (ix2 k q)) = V c main_v37 (ix2 k q)
  obtain ⟨-, -, -, -, -, -, e0, e1, -⟩ := index_maps t
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

theorem block_b (c : Dev nD) (t : Fin cfg1.N) (q : Fin 64) :
    iblk1 V c 4 t (ix2 (0 : Fin 1) q) = V c main_call1_v0 (ix2 (0 : Fin 1) q) := by
  show V c main_call1_v0 (((cfg1.win 4).blk t).view.emb (ix2 (0 : Fin 1) q)) = V c main_call1_v0 (ix2 (0 : Fin 1) q)
  obtain ⟨-, -, -, -, -, -, -, -, e0, e1, -⟩ := index_maps t
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

theorem block_wr (c : Dev nD) (t : Fin cfg1.N) (k : Fin 64) (q : Fin 64) :
    iblk1 V c 5 t (ix2 k q) = V c main_v38 (ix2 k q) := by
  show V c main_v38 (((cfg1.win 5).blk t).view.emb (ix2 k q)) = V c main_v38 (ix2 k q)
  obtain ⟨-, -, -, -, -, -, -, -, -, -, e0, e1, -⟩ := index_maps t
  refine congrArg _ (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

/-- The output block's entry (p, q) sits at row 5000·t + p of the array. -/
theorem block_out (t : Fin cfg1.N) (p : Fin 5000) (q : Fin 64) (r : Fin 200000) (hr : r.val = t.val * 5000 + p.val) :
    ((cfg1.win 6).blk t).view.emb (ix2 p q) = (ix2 r q : S200000x64.Idx) := by
  obtain ⟨-, -, -, -, -, -, -, -, -, -, -, -, e0, e1⟩ := index_maps t
  refine funext fun a => Fin.ext ?_
  match a with
  | ⟨0, _⟩ => show win1_6.index t (0 : Fin 2) * 5000 + 1 * p.val = r.val; omega
  | ⟨1, _⟩ => show win1_6.index t (1 : Fin 2) * 64 + 1 * q.val = q.val; omega

/-- The array the region's windows read, as the layer's six operands. -/
abbrev whole (c : Dev nD) : S200000x64.Idx → EReal :=
  layer (K := 64) (V c main_v36) (V c main_v12) (V c main_v25) (V c main_v37) (V c main_call1_v0) (V c main_v38)

/-- What grid point t writes back is block t of the layer. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero zero_offsets]
  simp only [View.ld_unit_zero (S := S5000x1) zero_offsets, View.ld_unit_zero (S := S5000x64) zero_offsets,
    View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  have hN : cfg1.N = 40 := N_1
  have hr : t.val * 5000 + p.val < 200000 := by have := t.isLt; have := p.isLt; omega
  refine (pay1_apply (iblk1 V c 1 t) (iblk1 V c 0 t) (iblk1 V c 2 t) (iblk1 V c 3 t) (iblk1 V c 5 t) (iblk1 V c 4 t) p q).trans ?_
  rw [View.read_apply, block_out t p q ⟨t.val * 5000 + p.val, hr⟩ rfl]
  show _ = cell _ _ _ _ _ _ (⟨t.val * 5000 + p.val, hr⟩ : Fin 200000) q
  unfold cell
  simp only [fun k => block_msg V c t p k ⟨t.val * 5000 + p.val, hr⟩ rfl, block_inv V c t p ⟨t.val * 5000 + p.val, hr⟩ rfl,
    fun k => block_x V c t p k ⟨t.val * 5000 + p.val, hr⟩ rfl, block_wl V c t, block_b V c t, block_wr V c t]

/-- An index is in point t's output block iff each coordinate is in the block's range. -/
theorem mem_block (t : Fin cfg1.N) (i : S200000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v39).slice (win1_6.rect t)).set ↔ _
  rw [View.set_slice_whole, Rect.mem_set_unit]
  exact Iff.rfl

/-- The 40 blocks tile the 200000 rows: row i is in the block of point i / 5000. -/
theorem covered (i : S200000x64.Idx) : ∃ t : Fin cfg1.N, (cfg1.win 6).flush t = true ∧ i ∈ ((cfg1.win 6).blk t).view.set := by
  have hN : cfg1.N = 40 := N_1
  have hi0 : (i 0).val < 200000 := (i 0).isLt
  have hi1 : (i 1).val < 64 := (i 1).isLt
  refine ⟨⟨(i 0).val / 5000, by rw [hN]; omega⟩, flush1_6 _, ?_⟩
  rw [mem_block]
  obtain ⟨-, -, -, -, -, -, -, -, -, -, -, -, e0, e1⟩ := index_maps ⟨(i 0).val / 5000, by rw [hN]; omega⟩
  intro a
  match a with
  | ⟨0, _⟩ => show win1_6.index _ (0 : Fin 2) * 5000 ≤ (i 0).val ∧ (i 0).val < win1_6.index _ (0 : Fin 2) * 5000 + 5000; rw [e0]; show (i 0).val / 5000 * 5000 ≤ (i 0).val ∧ (i 0).val < (i 0).val / 5000 * 5000 + 5000; omega
  | ⟨1, _⟩ => show win1_6.index _ (1 : Fin 2) * 64 ≤ (i 1).val ∧ (i 1).val < win1_6.index _ (1 : Fin 2) * 64 + 64; rw [e1]; omega

/-- THE ARRAY after the region: the layer of the six arrays the region finds on entry. -/
theorem final (c : Dev nD) : (dat1 V c).arrAt 6 cfg1.N = whole V c :=
  (dat1 V c).arrAt_eq_of_cover 6 (whole V c) (fun t _ => flushed_eq V c t) (covered)

end Cert.Sage.Region1

end
-- ==== Proof.RefStages.lean ====
/-
  The reference's two layers, entry by entry: each `relu` stage of the reference program is `Sage.layer` of its operands.

  Entry (r, c) of a layer of the reference is  max( Σₖ (msg[r,k] / D[r]) · Wᵀ[k,c] + b[c] + Σₖ x[r,k] · Vᵀ[k,c] , 0 )  with
  D[r] the in-degree of node r clamped below at 1.  Since D[r] ≥ 1 is never zero, dividing by it is multiplying by its
  reciprocal, and the three summands may be regrouped: that is the kernel's arrangement, for any column `inv` holding
  the reciprocals 1 / D[r] and any one-row matrix `b` holding the bias.
-/
import proofs.«145294_j2765958938745_2_alg».proof.Proof.Gen.ReferenceIdeal.Read
import proofs.«145294_j2765958938745_2_alg».proof.Proof.Spec
import Idealize.ShloMosaic.Lib.ValueIdx

set_option maxRecDepth 16384

noncomputable section

namespace Cert.Sage.Ref

open Idealize.ShloMosaic Idealize.ShloMosaic.ValueIdx
open Cert.ReferenceIdeal Cert.ReferenceIdeal.Read

/-! ## The printed index functions at an index given by coordinates -/

theorem lhs1 (r : Fin 200000) (c : Fin 64) (k : Fin 32) : lidx_main_v24 (ix2 r c) k = ix2 r k := funext fun a => by match a with | ⟨0, _⟩ => rfl | ⟨1, _⟩ => rfl
theorem rhs1 (r : Fin 200000) (c : Fin 64) (k : Fin 32) : ridx_main_v24 (ix2 r c) k = ix2 k c := funext fun a => by match a with | ⟨0, _⟩ => rfl | ⟨1, _⟩ => rfl
theorem lhs1' (r : Fin 200000) (c : Fin 64) (k : Fin 32) : lidx_main_v29 (ix2 r c) k = ix2 r k := funext fun a => by match a with | ⟨0, _⟩ => rfl | ⟨1, _⟩ => rfl
theorem rhs1' (r : Fin 200000) (c : Fin 64) (k : Fin 32) : ridx_main_v29 (ix2 r c) k = ix2 k c := funext fun a => by match a with | ⟨0, _⟩ => rfl | ⟨1, _⟩ => rfl
theorem bias1 (r : Fin 200000) (c : Fin 64) : idx_main_v25 (idx_main_v26 (ix2 r c)) = ix1 c := funext fun a => by match a with | ⟨0, _⟩ => rfl
theorem deg1 (r : Fin 200000) (k : Fin 32) : idx_main_v20 (idx_main_v21 (ix2 r k)) = ix1 r := funext fun a => by match a with | ⟨0, _⟩ => rfl
theorem lhs2 (r : Fin 200000) (c : Fin 64) (k : Fin 64) : lidx_main_v52 (ix2 r c) k = ix2 r k := funext fun a => by match a with | ⟨0, _⟩ => rfl | ⟨1, _⟩ => rfl
theorem rhs2 (r : Fin 200000) (c : Fin 64) (k : Fin 64) : ridx_main_v52 (ix2 r c) k = ix2 k c := funext fun a => by match a with | ⟨0, _⟩ => rfl | ⟨1, _⟩ => rfl
theorem lhs2' (r : Fin 200000) (c : Fin 64) (k : Fin 64) : lidx_main_v57 (ix2 r c) k = ix2 r k := funext fun a => by match a with | ⟨0, _⟩ => rfl | ⟨1, _⟩ => rfl
theorem rhs2' (r : Fin 200000) (c : Fin 64) (k : Fin 64) : ridx_main_v57 (ix2 r c) k = ix2 k c := funext fun a => by match a with | ⟨0, _⟩ => rfl | ⟨1, _⟩ => rfl
theorem bias2 (r : Fin 200000) (c : Fin 64) : idx_main_v53 (idx_main_v54 (ix2 r c)) = ix1 c := funext fun a => by match a with | ⟨0, _⟩ => rfl
theorem deg2 (r : Fin 200000) (k : Fin 64) : idx_main_v48 (idx_main_v49 (ix2 r k)) = ix1 r := funext fun a => by match a with | ⟨0, _⟩ => rfl

/-! ## Layer 1 -/

/-- The clamped in-degree is never zero. -/
theorem clamped1_ne_zero (x1 : (⟨S2x3200000, .i32⟩ : BufTy).Contents (Elt Ideal)) (r : Fin 200000) : (val_main_v19 (F := Ideal) x1 (ix1 r) : EReal) ≠ 0 := by
  rw [val_main_v19_apply, val_main_v18_apply, val_main_cst_3_apply]
  exact clamp_ne_zero _

theorem mean1_apply (x0 : (⟨S200000x32, .f32⟩ : BufTy).Contents (Elt Ideal)) (x1 : (⟨S2x3200000, .i32⟩ : BufTy).Contents (Elt Ideal)) (r : Fin 200000) (k : Fin 32) :
    val_main_v22 (F := Ideal) x0 x1 (ix2 r k)
      = Ideal.div (val_main_v13 (F := Ideal) x0 x1 (ix2 r k)) (val_main_v19 (F := Ideal) x1 (ix1 r)) := by
  rw [val_main_v22_apply, val_main_v21_apply, val_main_v20_apply, deg1 r k]
  rfl

theorem neighbours1_apply (x0 : (⟨S200000x32, .f32⟩ : BufTy).Contents (Elt Ideal)) (x1 : (⟨S2x3200000, .i32⟩ : BufTy).Contents (Elt Ideal)) (x3 : (⟨S64x32, .f32⟩ : BufTy).Contents (Elt Ideal)) (r : Fin 200000) (c : Fin 64) :
    val_main_v24 (F := Ideal) x0 x1 x3 (ix2 r c)
      = ∑ k : Fin 32, Ideal.div (val_main_v13 (F := Ideal) x0 x1 (ix2 r k)) (val_main_v19 (F := Ideal) x1 (ix1 r)) * val_main_v23 (F := Ideal) x3 (ix2 k c) := by
  rw [val_main_v24_apply]
  exact Finset.sum_congr rfl fun k _ => by rw [lhs1 r c k, rhs1 r c k, mean1_apply]

theorem self1_apply (x0 : (⟨S200000x32, .f32⟩ : BufTy).Contents (Elt Ideal)) (x5 : (⟨S64x32, .f32⟩ : BufTy).Contents (Elt Ideal)) (r : Fin 200000) (c : Fin 64) :
    val_main_v29 (F := Ideal) x0 x5 (ix2 r c) = ∑ k : Fin 32, x0 (ix2 r k) * val_main_v28 (F := Ideal) x5 (ix2 k c) := by
  rw [val_main_v29_apply]
  exact Finset.sum_congr rfl fun k _ => by rw [lhs1' r c k, rhs1' r c k]

theorem biasOf1_apply (x4 : (⟨S64, .f32⟩ : BufTy).Contents (Elt Ideal)) (r : Fin 200000) (c : Fin 64) : val_main_v26 (F := Ideal) x4 (ix2 r c) = x4 (ix1 c) := by
  rw [val_main_v26_apply, val_main_v25_apply, bias1 r c]

theorem zero1_apply (r : Fin 200000) (c : Fin 64) : val_main_call0_v0 (F := Ideal) (ix2 r c) = Ideal.ofBits .f32 0x00000000#32 := by
  rw [val_main_call0_v0_apply, val_main_call0_cst_apply]
  rfl

/-- The reference's first `relu` stage is the layer of its operands, for any reciprocal column and bias row. -/
theorem layer1_eq (x0 : (⟨S200000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S64x32, .f32⟩ : BufTy).Contents (Elt Ideal))
    (inv : S200000x1.Idx → EReal) (b : S1x64.Idx → EReal)
    (hinv : ∀ r : Fin 200000, inv (ix2 r (0 : Fin 1)) = Ideal.div (Ideal.ofBits .f32 0x3F800000#32) (val_main_v19 (F := Ideal) x1 (ix1 r)))
    (hb : ∀ c : Fin 64, b (ix2 (0 : Fin 1) c) = x4 (ix1 c)) :
    val_main_v31 (F := Ideal) x0 x1 x3 x4 x5
      = layer (K := 32) (val_main_v13 (F := Ideal) x0 x1) inv x0 (val_main_v23 (F := Ideal) x3) b (val_main_v28 (F := Ideal) x5) := by
  funext j
  obtain ⟨r, c, rfl⟩ : ∃ (r : Fin 200000) (c : Fin 64), j = ix2 r c := ⟨j 0, j 1, eq_ix2 j⟩
  rw [val_main_v31_apply, val_main_v30_apply, val_main_v27_apply, neighbours1_apply, self1_apply, biasOf1_apply, zero1_apply, ← hb c]
  exact cell_eq_divided (K := 32) (val_main_v13 (F := Ideal) x0 x1) inv x0 (val_main_v23 (F := Ideal) x3) b (val_main_v28 (F := Ideal) x5)
    r c (val_main_v19 (F := Ideal) x1 (ix1 r)) (clamped1_ne_zero x1 r) (hinv r)

/-! ## Layer 2 -/

/-- The reference computes the clamped in-degree a second time: the same operations of the same edge list. -/
theorem degree_again (x1 : (⟨S2x3200000, .i32⟩ : BufTy).Contents (Elt Ideal)) : val_main_v47 (F := Ideal) x1 = val_main_v19 (F := Ideal) x1 := rfl

theorem mean2_apply (x0 : (⟨S200000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S64x32, .f32⟩ : BufTy).Contents (Elt Ideal)) (r : Fin 200000) (k : Fin 64) :
    val_main_v50 (F := Ideal) x0 x1 x3 x4 x5 (ix2 r k)
      = Ideal.div (val_main_v41 (F := Ideal) x0 x1 x3 x4 x5 (ix2 r k)) (val_main_v19 (F := Ideal) x1 (ix1 r)) := by
  rw [val_main_v50_apply, val_main_v49_apply, val_main_v48_apply, deg2 r k, degree_again]
  rfl

theorem neighbours2_apply (x0 : (⟨S200000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S64x32, .f32⟩ : BufTy).Contents (Elt Ideal)) (x6 : (⟨S64x64, .f32⟩ : BufTy).Contents (Elt Ideal)) (r : Fin 200000) (c : Fin 64) :
    val_main_v52 (F := Ideal) x0 x1 x3 x4 x5 x6 (ix2 r c)
      = ∑ k : Fin 64, Ideal.div (val_main_v41 (F := Ideal) x0 x1 x3 x4 x5 (ix2 r k)) (val_main_v19 (F := Ideal) x1 (ix1 r)) * val_main_v51 (F := Ideal) x6 (ix2 k c) := by
  rw [val_main_v52_apply]
  exact Finset.sum_congr rfl fun k _ => by rw [lhs2 r c k, rhs2 r c k, mean2_apply]

theorem self2_apply (x0 : (⟨S200000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S64x32, .f32⟩ : BufTy).Contents (Elt Ideal)) (x8 : (⟨S64x64, .f32⟩ : BufTy).Contents (Elt Ideal)) (r : Fin 200000) (c : Fin 64) :
    val_main_v57 (F := Ideal) x0 x1 x3 x4 x5 x8 (ix2 r c)
      = ∑ k : Fin 64, val_main_v31 (F := Ideal) x0 x1 x3 x4 x5 (ix2 r k) * val_main_v56 (F := Ideal) x8 (ix2 k c) := by
  rw [val_main_v57_apply]
  exact Finset.sum_congr rfl fun k _ => by rw [lhs2' r c k, rhs2' r c k]

theorem biasOf2_apply (x7 : (⟨S64, .f32⟩ : BufTy).Contents (Elt Ideal)) (r : Fin 200000) (c : Fin 64) : val_main_v54 (F := Ideal) x7 (ix2 r c) = x7 (ix1 c) := by
  rw [val_main_v54_apply, val_main_v53_apply, bias2 r c]

theorem zero2_apply (r : Fin 200000) (c : Fin 64) : val_main_call1_v0 (F := Ideal) (ix2 r c) = Ideal.ofBits .f32 0x00000000#32 := by
  rw [val_main_call1_v0_apply, val_main_call1_cst_apply]
  rfl

/-- The reference's second `relu` stage is the layer of its operands — the first stage's array among them —, for any
    reciprocal column and bias row. -/
theorem layer2_eq (x0 : (⟨S200000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S64x32, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal))
    (inv : S200000x1.Idx → EReal) (b : S1x64.Idx → EReal)
    (hinv : ∀ r : Fin 200000, inv (ix2 r (0 : Fin 1)) = Ideal.div (Ideal.ofBits .f32 0x3F800000#32) (val_main_v19 (F := Ideal) x1 (ix1 r)))
    (hb : ∀ c : Fin 64, b (ix2 (0 : Fin 1) c) = x7 (ix1 c)) :
    val_main_v59 (F := Ideal) x0 x1 x3 x4 x5 x6 x7 x8
      = layer (K := 64) (val_main_v41 (F := Ideal) x0 x1 x3 x4 x5) inv (val_main_v31 (F := Ideal) x0 x1 x3 x4 x5)
          (val_main_v51 (F := Ideal) x6) b (val_main_v56 (F := Ideal) x8) := by
  funext j
  obtain ⟨r, c, rfl⟩ : ∃ (r : Fin 200000) (c : Fin 64), j = ix2 r c := ⟨j 0, j 1, eq_ix2 j⟩
  rw [val_main_v59_apply, val_main_v58_apply, val_main_v55_apply, neighbours2_apply, self2_apply, biasOf2_apply, zero2_apply, ← hb c]
  exact cell_eq_divided (K := 64) (val_main_v41 (F := Ideal) x0 x1 x3 x4 x5) inv (val_main_v31 (F := Ideal) x0 x1 x3 x4 x5)
    (val_main_v51 (F := Ideal) x6) b (val_main_v56 (F := Ideal) x8)
    r c (val_main_v19 (F := Ideal) x1 (ix1 r)) (clamped1_ne_zero x1 r) (hinv r)

end Cert.Sage.Ref

end
-- ==== Proof.KernelRun.lean ====
/-
  The run of the two-layer program with its buffers NAMED: every weakly fair execution of @main terminates, and every
  buffer that is not a kernel's private staging buffer ends at the contents the program's last boundary has — the fold
  of the host operations and of the two kernels' write-backs from the launch memory.  The arguments-unchanged frame
  reads the same run at the argument buffers only; here the result buffer is read too.
-/
import proofs.«145294_j2765958938745_2_alg».proof.Proof.Gen.KernelIdeal.Frame

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Sage

end
-- ==== Proof.KernelValue.lean ====
/-
  The two-layer program's result, read off its run.

  The run leaves every buffer at the fold of the host operations and the two kernels' write-backs.  Reading that fold
  backwards from the result: the pooling tail applied to the second kernel's output array; that array is the layer
  function of what the second kernel finds on entry (Blocks1); of those six arrays, the neighbour sum is the host's
  scatter of the gathered rows of the FIRST kernel's output array, the feature operand is that array itself, and the
  rest are host operations on the arguments; and the first kernel's output array is the layer function of what IT finds
  on entry (Blocks0).  Each host value is, term for term, the reference program's own stage of the same arguments
  (the two programs spell the gathers, scatters and the degree count identically), and each layer array is the
  reference's relu stage by the entry-by-entry law (RefStages).  So the result is the reference's composed term.
-/
import proofs.«145294_j2765958938745_2_alg».proof.Proof.Gen.KernelIdeal.Frame
import proofs.«145294_j2765958938745_2_alg».proof.Proof.Gen.ReferenceIdeal.Read
import proofs.«145294_j2765958938745_2_alg».proof.Proof.LibColumn
import proofs.«145294_j2765958938745_2_alg».proof.Proof.Blocks0
import proofs.«145294_j2765958938745_2_alg».proof.Proof.Blocks1
import proofs.«145294_j2765958938745_2_alg».proof.Proof.RefStages
import proofs.«145294_j2765958938745_2_alg».proof.Proof.KernelRun
import Idealize.ShloMosaic.Lib.StableHlo.Run
import Idealize.ShloMosaic.Lib.ValueLayout

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The column of reciprocals of a clamped degree vector: 1 / D, as a [200000, 1] array. -/
def invCol (D : FVec Ideal S200000 .f32) : FVec Ideal S200000x1 .f32 :=
  shapeCast S200000x1 (Host.divf (F := Ideal) (broadcastInDim S200000 ![] bcast_S_S200000 (constant (F := Ideal) S_ .f32 0x3F800000#32)) D) shapeCasts_S200000_S200000x1

/-- A bias vector as a one-row matrix. -/
def biasRow (b : FVec Ideal S64 .f32) : FVec Ideal S1x64 .f32 := shapeCast S1x64 b shapeCasts_S64_S1x64

theorem invCol_apply (D : FVec Ideal S200000 .f32) (r : Fin 200000) :
    invCol D (ix2 r (0 : Fin 1)) = Ideal.div (Ideal.ofBits .f32 0x3F800000#32) (D (ix1 r)) := by
  unfold invCol
  rw [Cert.GraphConv.Column.shapeCast_a_a1_apply]
  rfl

theorem biasRow_apply (b : FVec Ideal S64 .f32) (q : Fin 64) : biasRow b (ix2 (0 : Fin 1) q) = b (ix1 q) := by
  unfold biasRow
  exact shapeCast_a_1a_apply b _ (0 : Fin 1) q

/-! ## What the first kernel finds on entry: the host operations before it, read from the launch memory -/

theorem entry0_msg : V2 m ρ c main_v22 = Cert.ReferenceIdeal.Read.val_main_v13 (F := Ideal) (m ((c : Thread nD τ).loc main_arg0)) (m ((c : Thread nD τ).loc main_arg1)) := by
  show StableHlo.after hostOps0_1 (StableHlo.after hostOps0 (W0 m ρ c)) (Proc.devRef .tc main_v22) = _
  after_results_simp <;> rfl

theorem entry0_inv : V2 m ρ c main_v12 = invCol (Cert.ReferenceIdeal.Read.val_main_v19 (F := Ideal) (m ((c : Thread nD τ).loc main_arg1))) := by
  show StableHlo.after hostOps0_1 (StableHlo.after hostOps0 (W0 m ρ c)) (Proc.devRef .tc main_v12) = _
  after_results_simp <;> rfl

theorem entry0_x : V2 m ρ c main_arg0 = (m ((c : Thread nD τ).loc main_arg0)) := by
  show StableHlo.after hostOps0_1 (StableHlo.after hostOps0 (W0 m ρ c)) (Proc.devRef .tc main_arg0) = _
  after_results_simp <;> rfl

theorem entry0_wl : V2 m ρ c main_v23 = Cert.ReferenceIdeal.Read.val_main_v23 (F := Ideal) (m ((c : Thread nD τ).loc main_arg3)) := by
  show StableHlo.after hostOps0_1 (StableHlo.after hostOps0 (W0 m ρ c)) (Proc.devRef .tc main_v23) = _
  after_results_simp <;> rfl

theorem entry0_b : V2 m ρ c main_call0_v0 = biasRow (m ((c : Thread nD τ).loc main_arg4)) := by
  show StableHlo.after hostOps0_1 (StableHlo.after hostOps0 (W0 m ρ c)) (Proc.devRef .tc main_call0_v0) = _
  after_results_simp <;> rfl

theorem entry0_wr : V2 m ρ c main_v24 = Cert.ReferenceIdeal.Read.val_main_v28 (F := Ideal) (m ((c : Thread nD τ).loc main_arg5)) := by
  show StableHlo.after hostOps0_1 (StableHlo.after hostOps0 (W0 m ρ c)) (Proc.devRef .tc main_v24) = _
  after_results_simp <;> rfl

/-! ## Buffers the first kernel does not write keep what the host operations before it left -/

theorem mid_src : W3 m ρ c (Proc.devRef .tc main_v1) = Cert.ReferenceIdeal.Read.val_main_v1 (F := Ideal) (m ((c : Thread nD τ).loc main_arg1)) :=
  (W3_of_ne m ρ c main_v1 (by decide)).trans (by
    show StableHlo.after hostOps0_1 (StableHlo.after hostOps0 (W0 m ρ c)) (Proc.devRef .tc main_v1) = _
    after_results_simp <;> rfl)

theorem mid_dst : W3 m ρ c (Proc.devRef .tc main_v3) = Cert.ReferenceIdeal.Read.val_main_v3 (F := Ideal) (m ((c : Thread nD τ).loc main_arg1)) :=
  (W3_of_ne m ρ c main_v3 (by decide)).trans (by
    show StableHlo.after hostOps0_1 (StableHlo.after hostOps0 (W0 m ρ c)) (Proc.devRef .tc main_v3) = _
    after_results_simp <;> rfl)

theorem mid_arg2 : W3 m ρ c (Proc.devRef .tc main_arg2) = (m ((c : Thread nD τ).loc main_arg2)) :=
  (W3_of_ne m ρ c main_arg2 (by decide)).trans (by
    show StableHlo.after hostOps0_1 (StableHlo.after hostOps0 (W0 m ρ c)) (Proc.devRef .tc main_arg2) = _
    after_results_simp <;> rfl)

theorem mid_arg6 : W3 m ρ c (Proc.devRef .tc main_arg6) = (m ((c : Thread nD τ).loc main_arg6)) :=
  (W3_of_ne m ρ c main_arg6 (by decide)).trans (by
    show StableHlo.after hostOps0_1 (StableHlo.after hostOps0 (W0 m ρ c)) (Proc.devRef .tc main_arg6) = _
    after_results_simp <;> rfl)

theorem mid_arg7 : W3 m ρ c (Proc.devRef .tc main_arg7) = (m ((c : Thread nD τ).loc main_arg7)) :=
  (W3_of_ne m ρ c main_arg7 (by decide)).trans (by
    show StableHlo.after hostOps0_1 (StableHlo.after hostOps0 (W0 m ρ c)) (Proc.devRef .tc main_arg7) = _
    after_results_simp <;> rfl)

theorem mid_arg8 : W3 m ρ c (Proc.devRef .tc main_arg8) = (m ((c : Thread nD τ).loc main_arg8)) :=
  (W3_of_ne m ρ c main_arg8 (by decide)).trans (by
    show StableHlo.after hostOps0_1 (StableHlo.after hostOps0 (W0 m ρ c)) (Proc.devRef .tc main_arg8) = _
    after_results_simp <;> rfl)

theorem mid_arg9 : W3 m ρ c (Proc.devRef .tc main_arg9) = (m ((c : Thread nD τ).loc main_arg9)) :=
  (W3_of_ne m ρ c main_arg9 (by decide)).trans (by
    show StableHlo.after hostOps0_1 (StableHlo.after hostOps0 (W0 m ρ c)) (Proc.devRef .tc main_arg9) = _
    after_results_simp <;> rfl)

theorem mid_arg10 : W3 m ρ c (Proc.devRef .tc main_arg10) = (m ((c : Thread nD τ).loc main_arg10)) :=
  (W3_of_ne m ρ c main_arg10 (by decide)).trans (by
    show StableHlo.after hostOps0_1 (StableHlo.after hostOps0 (W0 m ρ c)) (Proc.devRef .tc main_arg10) = _
    after_results_simp <;> rfl)

/-- The reciprocal-degree column is an INPUT of the first kernel: it leaves it as it found it. -/
theorem mid_inv : W3 m ρ c (Proc.devRef .tc main_v12) = invCol (Cert.ReferenceIdeal.Read.val_main_v19 (F := Ideal) (m ((c : Thread nD τ).loc main_arg1))) :=
  (W3_arr m ρ c 1).trans (((dat0 (V2 m ρ) c).arrAt_in 1 rfl _).trans ((A_eq0 (V2 m ρ) c 1).trans (entry0_inv m ρ c)))

/-! ## The first layer's array -/

/-- After the first kernel, its output array is the reference's first hidden layer. -/
theorem hidden1 : W3 m ρ c (Proc.devRef .tc main_v25)
    = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W3_arr m ρ c 6).trans ((Region0.final (V2 m ρ) c).trans ?_)
  show layer (K := 32) (V2 m ρ c main_v22) (V2 m ρ c main_v12) (V2 m ρ c main_arg0) (V2 m ρ c main_v23) (V2 m ρ c main_call0_v0) (V2 m ρ c main_v24) = _
  rw [entry0_msg, entry0_inv, entry0_x, entry0_wl, entry0_b, entry0_wr]
  exact (Ref.layer1_eq _ _ _ _ _ _ _ (invCol_apply _) (biasRow_apply _)).symm

/-! ## What the second kernel finds on entry -/

theorem entry1_msg : V5 m ρ c main_v36
    = Cert.ReferenceIdeal.Read.val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1_1 (StableHlo.after hostOps1 (W3 m ρ c)) (Proc.devRef .tc main_v36) = _
  after_results_simp
  rw [mid_src, mid_dst, hidden1]
  rfl

theorem entry1_inv : V5 m ρ c main_v12 = invCol (Cert.ReferenceIdeal.Read.val_main_v19 (F := Ideal) (m ((c : Thread nD τ).loc main_arg1))) := by
  show StableHlo.after hostOps1_1 (StableHlo.after hostOps1 (W3 m ρ c)) (Proc.devRef .tc main_v12) = _
  after_results_simp
  exact mid_inv m ρ c

theorem entry1_x : V5 m ρ c main_v25
    = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1_1 (StableHlo.after hostOps1 (W3 m ρ c)) (Proc.devRef .tc main_v25) = _
  after_results_simp
  exact hidden1 m ρ c

theorem entry1_wl : V5 m ρ c main_v37 = Cert.ReferenceIdeal.Read.val_main_v51 (F := Ideal) (m ((c : Thread nD τ).loc main_arg6)) := by
  show StableHlo.after hostOps1_1 (StableHlo.after hostOps1 (W3 m ρ c)) (Proc.devRef .tc main_v37) = _
  after_results_simp
  rw [mid_arg6]
  rfl

theorem entry1_b : V5 m ρ c main_call1_v0 = biasRow (m ((c : Thread nD τ).loc main_arg7)) := by
  show StableHlo.after hostOps1_1 (StableHlo.after hostOps1 (W3 m ρ c)) (Proc.devRef .tc main_call1_v0) = _
  after_results_simp
  rw [mid_arg7]
  rfl

theorem entry1_wr : V5 m ρ c main_v38 = Cert.ReferenceIdeal.Read.val_main_v56 (F := Ideal) (m ((c : Thread nD τ).loc main_arg8)) := by
  show StableHlo.after hostOps1_1 (StableHlo.after hostOps1 (W3 m ρ c)) (Proc.devRef .tc main_v38) = _
  after_results_simp
  rw [mid_arg8]
  rfl

/-! ## The second layer's array -/

theorem hidden2 : W6 m ρ c (Proc.devRef .tc main_v39)
    = Cert.ReferenceIdeal.Read.val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 6).trans ((Region1.final (V5 m ρ) c).trans ?_)
  show layer (K := 64) (V5 m ρ c main_v36) (V5 m ρ c main_v12) (V5 m ρ c main_v25) (V5 m ρ c main_v37) (V5 m ρ c main_call1_v0) (V5 m ρ c main_v38) = _
  rw [entry1_msg, entry1_inv, entry1_x, entry1_wl, entry1_b, entry1_wr]
  exact (Ref.layer2_eq _ _ _ _ _ _ _ _ _ _ (invCol_apply _) (biasRow_apply _)).symm

theorem late_arg2 : W6 m ρ c (Proc.devRef .tc main_arg2) = (m ((c : Thread nD τ).loc main_arg2)) :=
  (W6_of_ne m ρ c main_arg2 (by decide)).trans (by
    show StableHlo.after hostOps1_1 (StableHlo.after hostOps1 (W3 m ρ c)) (Proc.devRef .tc main_arg2) = _
    after_results_simp
    exact mid_arg2 m ρ c)

theorem late_arg9 : W6 m ρ c (Proc.devRef .tc main_arg9) = (m ((c : Thread nD τ).loc main_arg9)) :=
  (W6_of_ne m ρ c main_arg9 (by decide)).trans (by
    show StableHlo.after hostOps1_1 (StableHlo.after hostOps1 (W3 m ρ c)) (Proc.devRef .tc main_arg9) = _
    after_results_simp
    exact mid_arg9 m ρ c)

theorem late_arg10 : W6 m ρ c (Proc.devRef .tc main_arg10) = (m ((c : Thread nD τ).loc main_arg10)) :=
  (W6_of_ne m ρ c main_arg10 (by decide)).trans (by
    show StableHlo.after hostOps1_1 (StableHlo.after hostOps1 (W3 m ρ c)) (Proc.devRef .tc main_arg10) = _
    after_results_simp
    exact mid_arg10 m ρ c)

/-! ## The result: the pooling tail of the second layer's array -/

theorem result_eq : W7 m ρ c (Proc.devRef .tc main_v56)
    = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W6 m ρ c) (Proc.devRef .tc main_v56) = _
  after_results_simp
  rw [hidden2, late_arg2, late_arg9, late_arg10]
  rfl

end Cert.Sage

namespace Cert.Sage

open Idealize.ShloMosaic Idealize.ShloMosaic.TcCoe Idealize.SL.Sem
open Cert.KernelIdeal Cert.KernelIdeal.Gen

/-- THE RUN of the two-layer program, read: the result buffer ends at the reference's own composed term of the
    argument arrays, and the arguments end unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v56)
        = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v56 (by decide))).trans (result_eq m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩)
    (run_named m ρ)

end Cert.Sage

end
-- ==== Proof.lean ====
/-
  A two-layer graph network (neighbour-mean aggregation, two linear maps, bias, relu — twice —, then a mean over each
  graph and a last linear map) whose two dense layers run as tiled kernels, against the plain array program.

  Over the extended reals the two programs compute the same function.  Both count each node's in-degree d by
  scattering ones over the edges' destinations and clamp it below at 1; both sum the neighbours' feature rows by a
  gather and a scatter.  One program then multiplies the neighbour sum by the reciprocal 1 / max(d, 1) inside the
  kernel, takes the two products with the transposed weight matrices into zero accumulators, adds them and then the
  bias; the other divides the neighbour sum by max(d, 1), and adds the bias between the two products.  max(d, 1) ≥ 1
  is never zero, so a / max(d,1) = a · (1 / max(d,1)) for EVERY extended real a — no entry needs to be finite —, and
  the three summands regroup by commutativity and associativity of addition.  Roundings to the 16-bit format on the way
  into the products are the identity on extended reals, a product into a zero accumulator is the plain sum over the
  contracted index, and the 40 row blocks of 5000 rows tile the 200000 nodes.  The second layer reads the first
  layer's array through the same gather and scatter in both programs, and the pooling tail is the same operations
  of the second layer's array: equal inputs, equal outputs.

  The three frames: the two kernel programs' runs terminate without fault and leave the arguments unchanged (the
  generated frame certificates, both kernels storing whole blocks through literal rectangles); the reference is a
  straight line of host operations.  The idealized kernel is the kernel's own text read over the extended reals: no
  rewrite was applied, so nothing is owed for it.
-/
import proofs.«145294_j2765958938745_2_alg».proof.Defs
import proofs.«145294_j2765958938745_2_alg».proof.Proof.Gen.Kernel
import proofs.«145294_j2765958938745_2_alg».proof.Proof.Gen.Kernel.Frame
import proofs.«145294_j2765958938745_2_alg».proof.Proof.Gen.KernelIdeal
import proofs.«145294_j2765958938745_2_alg».proof.Proof.Gen.KernelIdeal.Frame
import proofs.«145294_j2765958938745_2_alg».proof.Proof.Gen.ReferenceIdeal
import proofs.«145294_j2765958938745_2_alg».proof.Proof.Gen.ReferenceIdeal.Run
import proofs.«145294_j2765958938745_2_alg».proof.Proof.Gen.ReferenceIdeal.Read
import proofs.«145294_j2765958938745_2_alg».proof.Proof.Gen.Pre_finite_inputs
import proofs.«145294_j2765958938745_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the reference's composed term of the (agreeing) arguments. -/
theorem algebraic : Cert.algebraic_KernelIdeal_ReferenceIdeal := by
  intro m ρ m' ρ' _ hagree
  refine ⟨_, Cert.Sage.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9, h10⟩ := hagree c
  rw [Cert.ReferenceIdeal.Read.val_main_v76_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
